-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S50000x4 : Shape := ⟨2, ![50000, 4]⟩
abbrev S2x1600000 : Shape := ⟨2, ![2, 1600000]⟩
abbrev S133x64 : Shape := ⟨2, ![133, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S50000x4 : S_.BroadcastsInDim S50000x4 (![] : Fin 0 → Fin S50000x4.rank)
  reducesTo_S50000x4_S_d0_1 : S50000x4.ReducesTo [0, 1] S_
  bcast_S_S133x64 : S_.BroadcastsInDim S133x64 (![] : Fin 0 → Fin S133x64.rank)
  reducesTo_S133x64_S_d0_1 : S133x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S133x64 1) : IVec S_ 1 :=
  let main_c_5 : IVec S_ 1 := constantI S_ 1 1#1
  let main_v17 : IVec S_ 1 := (fun x v => Host.reduce IntOp.andi x v reducesTo_S133x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S50000x3 .f32) (main_arg2 : FVec F S50000x4 .f32) (main_arg3 : IVec S2x1600000 32) (main_arg4 : FVec F S133x64 .f32) (main_arg5 : FVec F S64 .f32) (main_arg6 : FVec F S64x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x4 .f32 := Host.absf main_arg2
  let main_cst_2 : FVec F S_ .f32 := constant S_ .f32 0x7F800000#32
  let main_v10 : FVec F S50000x4 .f32 := broadcastInDim S50000x4 ![] bcast_S_S50000x4 main_cst_2
  let main_v11 : IVec S50000x4 1 := cmpf .olt main_v9 main_v10
  let main_c_3 : IVec S_ 1 := constantI S_ 1 1#1
  let main_v12 : IVec S_ 1 := (fun x v => Host.reduce IntOp.andi x v reducesTo_S50000x4_S_d0_1 h_S_) main_v11 main_c_3
  let main_v13 : IVec S_ 1 := andi main_v8 main_v12
  let main_v14 : FVec F S133x64 .f32 := Host.absf main_arg4
  let main_cst_4 : FVec F S_ .f32 := constant S_ .f32 0x7F800000#32
  let main_v15 : FVec F S133x64 .f32 := broadcastInDim S133x64 ![] bcast_S_S133x64 main_cst_4
  let main_v16 : IVec S133x64 1 := cmpf .olt main_v14 main_v15
  fn_part1 (F := F) main_arg5 main_arg6 main_arg7 main_v13 main_v16
-- ==== Kernel.lean ====
abbrev S50000x128 : Shape := ⟨2, ![50000, 128]⟩
abbrev S50000x3 : Shape := ⟨2, ![50000, 3]⟩
abbrev S50000x4 : Shape := ⟨2, ![50000, 4]⟩
abbrev S2x1600000 : Shape := ⟨2, ![2, 1600000]⟩
abbrev S133x64 : Shape := ⟨2, ![133, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x4 : Shape := ⟨2, ![1600000, 4]⟩
abbrev S1600000x3 : Shape := ⟨2, ![1600000, 3]⟩
abbrev S8000x128 : Shape := ⟨2, ![8000, 128]⟩
abbrev S8000x4 : Shape := ⟨2, ![8000, 4]⟩
abbrev S8000x3 : Shape := ⟨2, ![8000, 3]⟩
abbrev S8000 : Shape := ⟨1, ![8000]⟩
abbrev S8000x1 : Shape := ⟨2, ![8000, 1]⟩
abbrev S128x64 : Shape := ⟨2, ![128, 64]⟩
abbrev S4x64 : Shape := ⟨2, ![4, 64]⟩
abbrev S1x64 : Shape := ⟨2, ![1, 64]⟩
abbrev S8000x64 : Shape := ⟨2, ![8000, 64]⟩
abbrev S1x1 : Shape := ⟨2, ![1, 1]⟩
abbrev S50000 : Shape := ⟨1, ![50000]⟩
abbrev S50000x1 : Shape := ⟨2, ![50000, 1]⟩

abbrev nBuf : Space → Nat
  | .hbm => 67
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S50000x4, .f32⟩
  | .hbm, ⟨3, _⟩ => ⟨S2x1600000, .i32⟩
  | .hbm, ⟨4, _⟩ => ⟨S133x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000x128, .bf16⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x4, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x3, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x3, .f32⟩
  | .hbm, ⟨49, _⟩ => ⟨S133x64, .bf16⟩
  | .hbm, ⟨50, _⟩ => ⟨S64x1, .bf16⟩
  | .hbm, ⟨51, _⟩ => ⟨S1600000x3, .f32⟩
  | .hbm, ⟨52, _⟩ => ⟨S_, .f32⟩
  | .hbm, ⟨53, _⟩ => ⟨S50000x3, .f32⟩
  | .hbm, ⟨54, _⟩ => ⟨S1600000x1, .i32⟩
  | .hbm, ⟨55, _⟩ => ⟨S50000x3, .f32⟩
  | .hbm, ⟨56, _⟩ => ⟨S50000x3, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S50000x1, .f32⟩
  | .hbm, ⟨61, _⟩ => ⟨S_, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x3, .f32⟩
  | .hbm, ⟨66, _⟩ => ⟨S50000x3, .f32⟩
  | .local _ .vmem, ⟨0, _⟩ => ⟨S8000x128, .bf16⟩
  | .local _ .vmem, ⟨1, _⟩ => ⟨S8000x128, .bf16⟩
  | .local _ .vmem, ⟨2, _⟩ => ⟨S8000x4, .f32⟩
  | .local _ .vmem, ⟨3, _⟩ => ⟨S8000x4, .f32⟩
  | .local _ .vmem, ⟨4, _⟩ => ⟨S8000x3, .f32⟩
  | .local _ .vmem, ⟨5, _⟩ => ⟨S8000x3, .f32⟩
  | .local _ .vmem, ⟨6, _⟩ => ⟨S8000x3, .f32⟩
  | .local _ .vmem, ⟨7, _⟩ => ⟨S8000x3, .f32⟩
  | .local _ .vmem, ⟨8, _⟩ => ⟨S133x64, .bf16⟩
  | .local _ .vmem, ⟨9, _⟩ => ⟨S64, .f32⟩
  | .local _ .vmem, ⟨10, _⟩ => ⟨S64x1, .bf16⟩
  | .local _ .vmem, ⟨11, _⟩ => ⟨S1, .f32⟩
  | .local _ .vmem, ⟨12, _⟩ => ⟨S8000x3, .f32⟩
  | .local _ .vmem, ⟨13, _⟩ => ⟨S8000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_cst : Ref sig .tc := ⟨.hbm, 57, rfl⟩
abbrev main_call0_v1 : Ref sig .tc := ⟨.hbm, 58, rfl⟩
abbrev main_call0_v2 : Ref sig .tc := ⟨.hbm, 59, rfl⟩
abbrev main_v39 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S133x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  reduces_S8000x3_S8000 : S8000x3.Reduces [1] S8000
  shapeCasts_S8000_S8000x1 : S8000.ShapeCasts S8000x1
  broadcasts_S8000x1_S8000x3 : S8000x1.Broadcasts S8000x3
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S133x64_S133x64_0_0 : ∀ a, (![0, 0] : Fin 2 → Nat) a + S133x64.size a ≤ S133x64.size a
  h_S133x64 : 0 < S133x64.numel
  shapeCasts_S133x64_S133x64 : S133x64.ShapeCasts S133x64
  slices_S133x64_o0_0_S128x64 : S133x64.Slices ![0, 0] S128x64
  slices_S133x64_o128_0_S4x64 : S133x64.Slices ![128, 0] S4x64
  slices_S133x64_o132_0_S1x64 : S133x64.Slices ![132, 0] S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  bcast_S_S50000x3 : S_.BroadcastsInDim S50000x3 (![] : Fin 0 → Fin S50000x3.rank)
  reducesTo_S50000x3_S50000_d1 : S50000x3.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  gather_S50000x128_S1600000x1_S1600000x128_1_0_n_n_0_1_1128_wf : GatherDims.WF S50000x128 S1600000x1 S1600000x128 [1] [0] [] [0] [] 1 ![1, 128]
  gather_S50000x4_S1600000x1_S1600000x4_1_0_n_n_0_1_14_wf : GatherDims.WF S50000x4 S1600000x1 S1600000x4 [1] [0] [] [0] [] 1 ![1, 4]
  gather_S50000x3_S1600000x1_S1600000x3_1_0_n_n_0_1_13_wf : GatherDims.WF S50000x3 S1600000x1 S1600000x3 [1] [0] [] [0] [] 1 ![1, 3]
  dot_S8000x128_S128x64_S8000x64_1_0_0_1_n_n_wf : DotDims.WF S8000x128 S128x64 S8000x64 [1] [0] [0] [1] [] []
  dot_S8000x4_S4x64_S8000x64_1_0_0_1_n_n_wf : DotDims.WF S8000x4 S4x64 S8000x64 [1] [0] [0] [1] [] []
  dot_S8000x1_S1x64_S8000x64_1_0_0_1_n_n_wf : DotDims.WF S8000x1 S1x64 S8000x64 [1] [0] [0] [1] [] []
  dot_S8000x64_S64x1_S8000x1_1_0_0_1_n_n_wf : DotDims.WF S8000x64 S64x1 S8000x1 [1] [0] [0] [1] [] []
  scatter_S50000x3_S1600000x1_S1600000x3_1_0_0_1_wf : ScatterDims.WF S50000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .bf16 = 32 ∨ (Rect.block (s := S1600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S1600000x4.size a
  hwx0_1 : ∀ i : grid0.Coords, EltTy.bits .f32 = 32 ∨ (Rect.block (s := S1600000x4) S8000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x3.size a ≤ S1600000x3.size a
  hwx0_2 : ∀ i : grid0.Coords, EltTy.bits .f32 = 32 ∨ (Rect.block (s := S1600000x3) S8000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x3.size a ≤ S1600000x3.size a
  hwx0_3 : ∀ i : grid0.Coords, EltTy.bits .f32 = 32 ∨ (Rect.block (s := S1600000x3) S8000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S133x64.size a ≤ S133x64.size a
  hwx0_4 : ∀ i : grid0.Coords, EltTy.bits .bf16 = 32 ∨ (Rect.block (s := S133x64) S133x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .bf16 = 32 ∨ (Rect.block (s := S64x1) S64x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x3.size a ≤ S1600000x3.size a
  hwx0_8 : ∀ i : grid0.Coords, EltTy.bits .f32 = 32 ∨ (Rect.block (s := S1600000x3) S8000x3.size (cc0_transform_8 i) (hinb0_8 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def dot_S8000x1_S1x64_S8000x64_1_0_0_1_n_n : DotDims S8000x1 S1x64 S8000x64 where
  lhsContracting := [1]
  rhsContracting := [0]
  lhsNonContracting := [0]
  rhsNonContracting := [1]
  lhsBatch := []
  rhsBatch := []
  wf := dot_S8000x1_S1x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S8000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S133x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S8000x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S50000x4 : Shape := ⟨2, ![50000, 4]⟩
abbrev S2x1600000 : Shape := ⟨2, ![2, 1600000]⟩
abbrev S133x64 : Shape := ⟨2, ![133, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x128 : Shape := ⟨2, ![1600000, 128]⟩
abbrev S1600000x4 : Shape := ⟨2, ![1600000, 4]⟩
abbrev S1600000x133 : Shape := ⟨2, ![1600000, 133]⟩
abbrev S1600000x64 : Shape := ⟨2, ![1600000, 64]⟩
abbrev S1x64 : Shape := ⟨2, ![1, 64]⟩
abbrev S1x1 : Shape := ⟨2, ![1, 1]⟩
abbrev S50000 : Shape := ⟨1, ![50000]⟩
abbrev S50000x1 : Shape := ⟨2, ![50000, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S50000x4, .f32⟩
  | .hbm, ⟨3, _⟩ => ⟨S2x1600000, .i32⟩
  | .hbm, ⟨4, _⟩ => ⟨S133x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x3, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x3, .f32⟩
  | .hbm, ⟨30, _⟩ => ⟨S1600000x3, .f32⟩
  | .hbm, ⟨31, _⟩ => ⟨S1600000x3, .f32⟩
  | .hbm, ⟨32, _⟩ => ⟨S_, .f32⟩
  | .hbm, ⟨33, _⟩ => ⟨S1600000, .f32⟩
  | .hbm, ⟨34, _⟩ => ⟨S1600000x1, .f32⟩
  | .hbm, ⟨35, _⟩ => ⟨S1600000x1, .f32⟩
  | .hbm, ⟨36, _⟩ => ⟨S_, .f32⟩
  | .hbm, ⟨37, _⟩ => ⟨S_, .f32⟩
  | .hbm, ⟨38, _⟩ => ⟨S1600000x1, .f32⟩
  | .hbm, ⟨39, _⟩ => ⟨S1600000x1, .f32⟩
  | .hbm, ⟨40, _⟩ => ⟨S1600000x3, .f32⟩
  | .hbm, ⟨41, _⟩ => ⟨S1600000x3, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x4, .f32⟩
  | .hbm, ⟨60, _⟩ => ⟨S1600000x133, .f32⟩
  | .hbm, ⟨61, _⟩ => ⟨S1600000x64, .f32⟩
  | .hbm, ⟨62, _⟩ => ⟨S1x64, .f32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S1600000x64, .f32⟩
  | .hbm, ⟨74, _⟩ => ⟨S1600000x1, .f32⟩
  | .hbm, ⟨75, _⟩ => ⟨S1x1, .f32⟩
  | .hbm, ⟨76, _⟩ => ⟨S1600000x1, .f32⟩
  | .hbm, ⟨77, _⟩ => ⟨S1600000x1, .f32⟩
  | .hbm, ⟨78, _⟩ => ⟨S1600000x3, .f32⟩
  | .hbm, ⟨79, _⟩ => ⟨S1600000x3, .f32⟩
  | .hbm, ⟨80, _⟩ => ⟨S_, .f32⟩
  | .hbm, ⟨81, _⟩ => ⟨S50000x3, .f32⟩
  | .hbm, ⟨82, _⟩ => ⟨S1600000x1, .i32⟩
  | .hbm, ⟨83, _⟩ => ⟨S50000x3, .f32⟩
  | .hbm, ⟨84, _⟩ => ⟨S50000x3, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S50000x1, .f32⟩
  | .hbm, ⟨89, _⟩ => ⟨S_, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x3, .f32⟩
  | .hbm, ⟨94, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v19 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call3_v0 : Ref sig .tc := ⟨.hbm, 84, rfl⟩
abbrev main_call3_cst : Ref sig .tc := ⟨.hbm, 85, rfl⟩
abbrev main_call3_v1 : Ref sig .tc := ⟨.hbm, 86, rfl⟩
abbrev main_call3_v2 : Ref sig .tc := ⟨.hbm, 87, rfl⟩
abbrev main_v52 : Ref sig .tc := ⟨.hbm, 88, rfl⟩
abbrev main_cst_8 : Ref sig .tc := ⟨.hbm, 89, rfl⟩
abbrev main_call4_v0 : Ref sig .tc := ⟨.hbm, 90, rfl⟩
abbrev main_call4_v1 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  concatenates_S1600000x128_S1600000x4_S1600000x1_S1600000x133_d1 : Shape.Concatenates [S1600000x128, S1600000x4, S1600000x1] S1600000x133 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S50000x3 : S_.BroadcastsInDim S50000x3 (![] : Fin 0 → Fin S50000x3.rank)
  reducesTo_S50000x3_S50000_d1 : S50000x3.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  gather_S50000x3_S1600000x1_S1600000x3_1_0_n_n_0_1_13_wf : GatherDims.WF S50000x3 S1600000x1 S1600000x3 [1] [0] [] [0] [] 1 ![1, 3]
  gather_S50000x128_S1600000x1_S1600000x128_1_0_n_n_0_1_1128_wf : GatherDims.WF S50000x128 S1600000x1 S1600000x128 [1] [0] [] [0] [] 1 ![1, 128]
  gather_S50000x4_S1600000x1_S1600000x4_1_0_n_n_0_1_14_wf : GatherDims.WF S50000x4 S1600000x1 S1600000x4 [1] [0] [] [0] [] 1 ![1, 4]
  dot_S1600000x133_S133x64_S1600000x64_1_0_0_1_n_n_wf : DotDims.WF S1600000x133 S133x64 S1600000x64 [1] [0] [0] [1] [] []
  dot_S1600000x64_S64x1_S1600000x1_1_0_0_1_n_n_wf : DotDims.WF S1600000x64 S64x1 S1600000x1 [1] [0] [0] [1] [] []
  scatter_S50000x3_S1600000x1_S1600000x3_1_0_0_1_wf : ScatterDims.WF S50000x3 S1600000x1 S1600000x3 [1] [0] [0] 1

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def dot_S1600000x133_S133x64_S1600000x64_1_0_0_1_n_n : DotDims S1600000x133 S133x64 S1600000x64 where
  lhsContracting := [1]
  rhsContracting := [0]
  lhsNonContracting := [0]
  rhsNonContracting := [1]
  lhsBatch := []
  rhsBatch := []
  wf := dot_S1600000x133_S133x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

class Facts : Prop extends Facts₀ where

variable [Facts]
-- ==== Proof.EdgeSpec.lean ====
/-
  One edge's contribution, as a function of that edge's data alone.

  For an edge with end points `row` and `col`: the displacement `diff = x[col] - x[row]`, its clipped length
  `clipLen = max (sqrt (Σ_j diff_j²)) ε`, the unit vector `diff / clipLen`, and a two-layer perceptron on the 133 features
  (the 128 node features of `row`, its 4 curvatures, and `clipLen`): `pre_n = Σ_k feature_k · W1 (k, n) + b1_n`,
  `act_n = pre_n · logistic pre_n`, `alpha = Σ_n act_n · W2_n + b2`. The contribution is `alpha · diff_j / clipLen`.

  The 133-term sum is written in the three runs the features come in (128, 4, 1); `sum_split` is the regrouping of a
  sum over 133 terms into those runs, which holds in any commutative monoid (so on the extended reals, where only
  commutativity and associativity of `+` are available), and `silu_eq` says that the expansion of the logistic
  function into negate, exponential, add, divide is the logistic function, on every extended real.
-/
import Idealize.ShloMosaic.PureOps.Ideal
import Idealize.ShloMosaic.PureOps.Ideal.Laws
import Idealize.ShloMosaic.Lib.IdealHost

noncomputable section

open scoped BigOperators

namespace Cert.EdgeSpec

open Idealize.ShloMosaic

/-- A sum over 133 terms, regrouped as its first 128, the next 4, and the last one. -/
theorem sum_split {M : Type} [AddCommMonoid M] (f : Fin 133 → M) :
    ∑ k, f k = (∑ k : Fin 128, f ⟨k.val, by omega⟩ + ∑ k : Fin 4, f ⟨128 + k.val, by omega⟩)
      + ∑ k : Fin 1, f ⟨132 + k.val, by omega⟩ := by
  rw [show (∑ k, f k) = ∑ k : Fin (132 + 1), f k from rfl, Fin.sum_univ_add]
  congr 1
  rw [show (∑ k : Fin 132, f (Fin.castAdd 1 k)) = ∑ k : Fin (128 + 4), f (Fin.castAdd 1 k) from rfl, Fin.sum_univ_add]
  rfl

/-- The clipped length of the displacement between the two end points. -/
def clipLen (eps : EReal) (xr xc : Fin 3 → EReal) : EReal :=
  max (Ideal.sqrt (∑ j : Fin 3, (xc j - xr j) * (xc j - xr j))) eps

/-- The hidden layer before its activation, the 133 features taken in their three runs. -/
def pre (eps : EReal) (hr : Fin 128 → EReal) (cr : Fin 4 → EReal) (xr xc : Fin 3 → EReal)
    (W1 : Fin 133 → Fin 64 → EReal) (b1 : Fin 64 → EReal) (n : Fin 64) : EReal :=
  ((∑ k : Fin 128, hr k * W1 ⟨k.val, by omega⟩ n + ∑ k : Fin 4, cr k * W1 ⟨128 + k.val, by omega⟩ n)
    + ∑ k : Fin 1, clipLen eps xr xc * W1 ⟨132 + k.val, by omega⟩ n) + b1 n

/-- The edge's scalar weight. -/
def alpha (eps : EReal) (hr : Fin 128 → EReal) (cr : Fin 4 → EReal) (xr xc : Fin 3 → EReal)
    (W1 : Fin 133 → Fin 64 → EReal) (b1 : Fin 64 → EReal) (W2 : Fin 64 → EReal) (b2 : EReal) : EReal :=
  (∑ n : Fin 64, (pre eps hr cr xr xc W1 b1 n * Ideal.logistic (pre eps hr cr xr xc W1 b1 n)) * W2 n) + b2

/-- The edge's contribution to coordinate `j` of its `row` end point. -/
def edgeOut (eps : EReal) (hr : Fin 128 → EReal) (cr : Fin 4 → EReal) (xr xc : Fin 3 → EReal)
    (W1 : Fin 133 → Fin 64 → EReal) (b1 : Fin 64 → EReal) (W2 : Fin 64 → EReal) (b2 : EReal) (j : Fin 3) : EReal :=
  alpha eps hr cr xr xc W1 b1 W2 b2 * Ideal.div (xc j - xr j) (clipLen eps xr xc)

/-- The logistic function spelt out — one over one plus the exponential of the negation, the ones being the f32
    word of 1.0 — is the logistic function, on every extended real. -/
theorem silu_eq (x : EReal) :
    x * Ideal.div (Ideal.ofBits .f32 0x3F800000#32) (Ideal.ofBits .f32 0x3F800000#32 + Ideal.exp (-x))
      = x * Ideal.logistic x := by
  rw [Ideal.ofBits_one_f32]; rfl

end Cert.EdgeSpec

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.KernelBlock.lean ====
/-
  One block of the edge kernel, entry by entry.

  The kernel body loads, for a block of 8000 consecutive edges, the gathered node features (8000 × 128), curvatures
  (8000 × 4) and the two end points' positions (8000 × 3 each), and the whole weight arrays; it stores an 8000 × 3
  block. Entry (r, j) of the stored block depends on row r of each per-edge block only, and is the edge's
  contribution `EdgeSpec.edgeOut` of that row: the displacement and its clipped length, the unit vector, the three
  matrix products that together are the 133-feature layer (each into a zero accumulator, so each is a plain sum),
  the bias, the logistic activation, the second layer and its bias, and the final product with the unit vector.
  A change of float format is the identity on the extended reals, so the roundings to bf16 on the way into the
  matrix products do not appear.
-/
import proofs.«102870_j79645873537099_1_alg».proof.Proof.Gen.KernelIdeal.Skeleton
import proofs.«102870_j79645873537099_1_alg».proof.Proof.EdgeSpec
import proofs.«102870_j79645873537099_1_alg».proof.Proof.LibMatmulPlain
import proofs.«102870_j79645873537099_1_alg».proof.Proof.LibKeepdims
import proofs.«102870_j79645873537099_1_alg».proof.Proof.LibRowReduce
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.EdgeSpec

/-- The displacement at (r, j): the second end point's coordinate less the first's. -/
theorem diff_apply (v0 v2 : FVec Ideal S8000x3 .f32) (r : Fin 8000) (j : Fin 3) :
    k0_pay2 (F := Ideal) v0 v2 (ix2 r j) = v0 (ix2 r j) - v2 (ix2 r j) := by
  unfold k0_pay2
  show shapeCast S8000x3 v0 shapeCasts_S8000x3_S8000x3 (ix2 r j) - shapeCast S8000x3 v2 shapeCasts_S8000x3_S8000x3 (ix2 r j) = _
  rw [shapeCast_self, shapeCast_self]

/-- The clipped length at (r, ·): the square root of the row's sum of squares, not below ε. -/
theorem clipLen_apply (v0 v2 : FVec Ideal S8000x3 .f32) (r : Fin 8000) (u : Fin 1) :
    k0_pay3 (F := Ideal) v0 v2 (ix2 r u)
      = clipLen (Ideal.ofBits .f32 0x358637BD#32) (fun j => v2 (ix2 r j)) (fun j => v0 (ix2 r j)) := by
  unfold k0_pay3 clipLen
  show max (Ideal.sqrt (shapeCast S8000x1 (multiReduction .add [1] S8000 (mulf (k0_pay2 (F := Ideal) v0 v2) (k0_pay2 (F := Ideal) v0 v2))
      0x00000000#32 reduces_S8000x3_S8000 (.inl rfl) rfl) shapeCasts_S8000_S8000x1 (ix2 r u)))
      (Ideal.ofBits .f32 0x358637BD#32) = _
  refine congrArg (fun z => max (Ideal.sqrt z) (Ideal.ofBits .f32 0x358637BD#32)) ?_
  refine (Keepdims.shapeCast_a_a1_apply _ shapeCasts_S8000_S8000x1 r u).trans ?_
  refine (RowReduce.rowSum_apply (mulf (k0_pay2 (F := Ideal) v0 v2) (k0_pay2 (F := Ideal) v0 v2)) 0x00000000#32 reduces_S8000x3_S8000
    (.inl rfl) rfl r).trans ?_
  refine Finset.sum_congr rfl fun j _ => ?_
  show k0_pay2 (F := Ideal) v0 v2 (ix2 r j) * k0_pay2 (F := Ideal) v0 v2 (ix2 r j) = _
  rw [diff_apply]

/-- The unit vector at (r, j): the displacement over the clipped length. -/
theorem unit_apply (v0 v2 : FVec Ideal S8000x3 .f32) (r : Fin 8000) (j : Fin 3) :
    k0_pay4 (F := Ideal) v0 v2 (ix2 r j)
      = Ideal.div (v0 (ix2 r j) - v2 (ix2 r j))
          (clipLen (Ideal.ofBits .f32 0x358637BD#32) (fun j => v2 (ix2 r j)) (fun j => v0 (ix2 r j))) := by
  unfold k0_pay4
  show Ideal.div (k0_pay2 (F := Ideal) v0 v2 (ix2 r j))
      (broadcastTo S8000x3 (k0_pay3 (F := Ideal) v0 v2) broadcasts_S8000x1_S8000x3 (ix2 r j)) = _
  rw [diff_apply]
  refine congrArg (Ideal.div _) ?_
  exact (Keepdims.broadcastTo_a1_ab_apply _ broadcasts_S8000x1_S8000x3 r j).trans (clipLen_apply v0 v2 r 0)

/-- The hidden layer before its activation, as the body computes it: three products and the bias row. -/
def hid (v0 v2 : FVec Ideal S8000x3 .f32) (v13 : FVec Ideal S8000x4 .f32) (v17 : FVec Ideal S133x64 .bf16)
    (v22 : FVec Ideal S8000x128 .bf16) (v29 : FVec Ideal S64 .f32) : FVec Ideal S8000x64 .f32 :=
  addf (addf (addf
    (matmul dot_S8000x128_S128x64_S8000x64_1_0_0_1_n_n none (shapeCast S8000x128 v22 shapeCasts_S8000x128_S8000x128)
      (extractStridedSlice S128x64 ![0, 0] (shapeCast S133x64 v17 shapeCasts_S133x64_S133x64) slices_S133x64_o0_0_S128x64)
      (constant S8000x64 .f32 0x00000000#32))
    (matmul dot_S8000x4_S4x64_S8000x64_1_0_0_1_n_n none
      (truncf .bf16 (shapeCast S8000x4 v13 shapeCasts_S8000x4_S8000x4) bitsLt_bf16_f32)
      (extractStridedSlice S4x64 ![128, 0] (shapeCast S133x64 v17 shapeCasts_S133x64_S133x64) slices_S133x64_o128_0_S4x64)
      (constant S8000x64 .f32 0x00000000#32)))
    (matmul dot_S8000x1_S1x64_S8000x64_1_0_0_1_n_n none (truncf .bf16 (k0_pay3 (F := Ideal) v0 v2) bitsLt_bf16_f32)
      (extractStridedSlice S1x64 ![132, 0] (shapeCast S133x64 v17 shapeCasts_S133x64_S133x64) slices_S133x64_o132_0_S1x64)
      (constant S8000x64 .f32 0x00000000#32)))
    (broadcastTo S8000x64 (shapeCast S1x64 v29 shapeCasts_S64_S1x64) broadcasts_S1x64_S8000x64)

/-- Rows `o + k` of the first-layer weights, read through the cut the body makes at row `o`. -/
theorem w1_rows {m : Nat} (o : Nat) (v17 : FVec Ideal S133x64 .bf16)
    (h : S133x64.Slices ![o, 0] ⟨2, ![m, 64]⟩) (k : Fin m) (n : Fin 64) (a : Fin 133) (ha : a.val = o + k.val) :
    extractStridedSlice ⟨2, ![m, 64]⟩ ![o, 0] (shapeCast S133x64 v17 shapeCasts_S133x64_S133x64) h (ix2 k n)
      = v17 (ix2 a n) := by
  rw [shapeCast_self]
  exact slice2_axis0_apply o v17 h k n a ha

/-- The hidden layer at (r, n), before activation, is the specification's. -/
theorem hid_apply (v0 v2 : FVec Ideal S8000x3 .f32) (v13 : FVec Ideal S8000x4 .f32) (v17 : FVec Ideal S133x64 .bf16)
    (v22 : FVec Ideal S8000x128 .bf16) (v29 : FVec Ideal S64 .f32) (r : Fin 8000) (n : Fin 64) :
    hid v0 v2 v13 v17 v22 v29 (ix2 r n)
      = pre (Ideal.ofBits .f32 0x358637BD#32) (fun k => v22 (ix2 r k)) (fun k => v13 (ix2 r k))
          (fun j => v2 (ix2 r j)) (fun j => v0 (ix2 r j)) (fun a n => v17 (ix2 a n)) (fun n => v29 (ix1 n)) n := by
  unfold hid pre
  refine congrArg₂ (· + ·) (congrArg₂ (· + ·) (congrArg₂ (· + ·) ?_ ?_) ?_) ?_
  · refine (MatmulPlain.matmul_zero_apply (M := 8000) (K := 128) (N := 64) none _ _ (ix2 r n)).trans ?_
    refine Finset.sum_congr rfl fun k _ => ?_
    refine congrArg₂ (· * ·) ?_ ?_
    · show shapeCast S8000x128 v22 shapeCasts_S8000x128_S8000x128 (ix2 r k) = _
      rw [shapeCast_self]
    · exact w1_rows 0 v17 slices_S133x64_o0_0_S128x64 k n ⟨k.val, by omega⟩ (by simp)
  · refine (MatmulPlain.matmul_zero_apply (M := 8000) (K := 4) (N := 64) none _ _ (ix2 r n)).trans ?_
    refine Finset.sum_congr rfl fun k _ => ?_
    refine congrArg₂ (· * ·) ?_ ?_
    · show shapeCast S8000x4 v13 shapeCasts_S8000x4_S8000x4 (ix2 r k) = _
      rw [shapeCast_self]
    · exact w1_rows 128 v17 slices_S133x64_o128_0_S4x64 k n ⟨128 + k.val, by omega⟩ rfl
  · refine (MatmulPlain.matmul_zero_apply (M := 8000) (K := 1) (N := 64) none _ _ (ix2 r n)).trans ?_
    refine Finset.sum_congr rfl fun k _ => ?_
    refine congrArg₂ (· * ·) ?_ ?_
    · exact clipLen_apply v0 v2 r k
    · exact w1_rows 132 v17 slices_S133x64_o132_0_S1x64 k n ⟨132 + k.val, by omega⟩ rfl
  · refine (broadcastTo_1b_ab_apply _ broadcasts_S1x64_S8000x64 r n).trans ?_
    exact shapeCast_a_1a_apply v29 shapeCasts_S64_S1x64 0 n

/-- The second layer's product is over the activated hidden layer. -/
theorem pay5_eq (v0 v2 : FVec Ideal S8000x3 .f32) (v13 : FVec Ideal S8000x4 .f32) (v17 : FVec Ideal S133x64 .bf16)
    (v22 : FVec Ideal S8000x128 .bf16) (v29 : FVec Ideal S64 .f32) (v36 : FVec Ideal S64x1 .bf16) :
    k0_pay5 (F := Ideal) v0 v2 v13 v17 v22 v29 v36
      = matmul dot_S8000x64_S64x1_S8000x1_1_0_0_1_n_n none
          (truncf .bf16 (mulf (hid v0 v2 v13 v17 v22 v29) (logistic (hid v0 v2 v13 v17 v22 v29))) bitsLt_bf16_f32)
          (shapeCast S64x1 v36 shapeCasts_S64x1_S64x1) (constant S8000x1 .f32 0x00000000#32) := rfl

/-- THE BLOCK, entry by entry: what the body stores at (r, j) is the contribution of the edge in row r. -/
theorem pay_apply (x0 : FVec Ideal S8000x128 .bf16) (x1 : FVec Ideal S8000x4 .f32) (x2 x3 : FVec Ideal S8000x3 .f32)
    (x4 : FVec Ideal S133x64 .bf16) (x5 : FVec Ideal S64 .f32) (x6 : FVec Ideal S64x1 .bf16) (x7 : FVec Ideal S1 .f32)
    (r : Fin 8000) (j : Fin 3) :
    k0_pay1 (F := Ideal) (k0_pay4 (F := Ideal) x3 x2) (k0_pay5 (F := Ideal) x3 x2 x1 x4 x0 x5 x6) x7 (ix2 r j)
      = edgeOut (Ideal.ofBits .f32 0x358637BD#32) (fun k => x0 (ix2 r k)) (fun k => x1 (ix2 r k))
          (fun j => x2 (ix2 r j)) (fun j => x3 (ix2 r j)) (fun a n => x4 (ix2 a n)) (fun n => x5 (ix1 n))
          (fun n => x6 (ix2 n (0 : Fin 1))) (x7 (ix1 (0 : Fin 1))) j := by
  unfold k0_pay1 edgeOut
  show broadcastTo S8000x3 (addf (k0_pay5 (F := Ideal) x3 x2 x1 x4 x0 x5 x6)
      (broadcastTo S8000x1 (shapeCast S1x1 x7 shapeCasts_S1_S1x1) broadcasts_S1x1_S8000x1))
      broadcasts_S8000x1_S8000x3 (ix2 r j) * k0_pay4 (F := Ideal) x3 x2 (ix2 r j) = _
  refine congrArg₂ (· * ·) ?_ (unit_apply x3 x2 r j)
  refine (Keepdims.broadcastTo_a1_ab_apply _ broadcasts_S8000x1_S8000x3 r j).trans ?_
  unfold alpha
  show k0_pay5 (F := Ideal) x3 x2 x1 x4 x0 x5 x6 (ix2 r (0 : Fin 1))
      + broadcastTo S8000x1 (shapeCast S1x1 x7 shapeCasts_S1_S1x1) broadcasts_S1x1_S8000x1 (ix2 r (0 : Fin 1)) = _
  refine congrArg₂ (· + ·) ?_ ?_
  · rw [pay5_eq]
    refine (MatmulPlain.matmul_zero_apply (M := 8000) (K := 64) (N := 1) none _ _ (ix2 r (0 : Fin 1))).trans ?_
    refine Finset.sum_congr rfl fun n _ => ?_
    refine congrArg₂ (· * ·) ?_ ?_
    · show hid x3 x2 x1 x4 x0 x5 (ix2 r n) * Ideal.logistic (hid x3 x2 x1 x4 x0 x5 (ix2 r n)) = _
      rw [hid_apply]
    · show shapeCast S64x1 x6 shapeCasts_S64x1_S64x1 (ix2 n (0 : Fin 1)) = _
      rw [shapeCast_self]
  · refine (broadcastTo_1b_ab_apply _ broadcasts_S1x1_S8000x1 r (0 : Fin 1)).trans ?_
    exact shapeCast_a_1a_apply x7 shapeCasts_S1_S1x1 0 0

end Cert.KernelIdeal.Block

end
-- ==== Proof.KernelArray.lean ====
/-
  From blocks to the whole per-edge array.

  The edge kernel runs at 200 grid points; point t works on edges 8000·t … 8000·t + 7999: its four per-edge windows
  hold rows 8000·t + r of the gathered arrays, its weight windows the whole weight arrays, and it writes back rows
  8000·t + r of the result. Since entry (r, j) of a block depends on row r of the per-edge blocks only
  (`Block.pay_apply`), the block written at point t is the restriction of ONE function of the whole arrays,
  `edges`: row e, column j ↦ the contribution of edge e. The 200 blocks tile the 1,600,000 rows (edge e is in the
  block of point e / 8000), so after the run the result array is `edges` of the arrays the region found.
-/
import proofs.«102870_j79645873537099_1_alg».proof.Proof.Gen.KernelIdeal.Frame
import proofs.«102870_j79645873537099_1_alg».proof.Proof.KernelBlock

set_option maxRecDepth 16384

noncomputable section

namespace Cert.KernelIdeal.Arr

open Cert.KernelIdeal Cert.KernelIdeal.Gen Idealize.ShloMosaic Idealize.ShloMosaic.TcCoe Idealize.ShloMosaic.ValueIdx
  Idealize.SL.Sem Cert.EdgeSpec
open Idealize.ShloMosaic.Pipeline (Dat)

/-- Edge e's contribution to coordinate j, from the whole gathered arrays and the weights. -/
def edgeRow (A0 : Vec Ideal S1600000x128 .bf16) (A1 : Vec Ideal S1600000x4 .f32) (A2 A3 : Vec Ideal S1600000x3 .f32)
    (A4 : Vec Ideal S133x64 .bf16) (A5 : Vec Ideal S64 .f32) (A6 : Vec Ideal S64x1 .bf16) (A7 : Vec Ideal S1 .f32)
    (e : Fin 1600000) (j : Fin 3) : EReal :=
  edgeOut (Ideal.ofBits .f32 0x358637BD#32) (fun k => A0 (ix2 e k)) (fun k => A1 (ix2 e k)) (fun j => A2 (ix2 e j))
    (fun j => A3 (ix2 e j)) (fun a n => A4 (ix2 a n)) (fun n => A5 (ix1 n)) (fun n => A6 (ix2 n (0 : Fin 1)))
    (A7 (ix1 (0 : Fin 1))) j

/-- The whole per-edge array: every edge's contribution. -/
def edges (A0 : Vec Ideal S1600000x128 .bf16) (A1 : Vec Ideal S1600000x4 .f32) (A2 A3 : Vec Ideal S1600000x3 .f32)
    (A4 : Vec Ideal S133x64 .bf16) (A5 : Vec Ideal S64 .f32) (A6 : Vec Ideal S64x1 .bf16) (A7 : Vec Ideal S1 .f32) :
    Vec Ideal S1600000x3 .f32 :=
  fun i => edgeRow A0 A1 A2 A3 A4 A5 A6 A7 (i 0) (i 1)

variable (m : (ℓ : Loc nD τ sig) → Buf (Elt Ideal) ℓ)

theorem hz : (![0, 0] : Fin 2 → Nat) = fun _ => 0 := funext fun a => by fin_cases a <;> rfl
theorem hz1 : (![0] : Fin 1 → Nat) = fun _ => 0 := funext fun a => by fin_cases a; rfl

/-- The printed index maps over the grid: the four per-edge windows and the result window are at block row t, the
    weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each window's block at a point, read off its array -/

theorem blk0 (c : Dev nD) (t : Fin cfg0.N) (r : Fin 8000) (k : Fin 128) (e : Fin 1600000)
    (he : e.val = t.val * 8000 + r.val) : iblk m c 0 t (ix2 r k) = V m c main_v11 (ix2 e k) := by
  show V m c main_v11 (((cfg0.win 0).blk t).view.emb (ix2 r k)) = V m c main_v11 (ix2 e k)
  obtain ⟨h0, h1, -⟩ := idx_facts t
  refine congrArg (V m c main_v11) (funext fun a => Fin.ext ?_)
  match a with
  | ⟨0, _⟩ => show win0_0.index t (0 : Fin 2) * 8000 + 1 * r.val = e.val; omega
  | ⟨1, _⟩ => show win0_0.index t (1 : Fin 2) * 128 + 1 * k.val = k.val; omega

theorem blk1 (c : Dev nD) (t : Fin cfg0.N) (r : Fin 8000) (k : Fin 4) (e : Fin 1600000)
    (he : e.val = t.val * 8000 + r.val) : iblk m c 1 t (ix2 r k) = V m c main_v18 (ix2 e k) := by
  show V m c main_v18 (((cfg0.win 1).blk t).view.emb (ix2 r k)) = V m c main_v18 (ix2 e k)
  obtain ⟨-, -, h0, h1, -⟩ := idx_facts t
  refine congrArg (V m c main_v18) (funext fun a => Fin.ext ?_)
  match a with
  | ⟨0, _⟩ => show win0_1.index t (0 : Fin 2) * 8000 + 1 * r.val = e.val; omega
  | ⟨1, _⟩ => show win0_1.index t (1 : Fin 2) * 4 + 1 * k.val = k.val; omega

theorem blk2 (c : Dev nD) (t : Fin cfg0.N) (r : Fin 8000) (k : Fin 3) (e : Fin 1600000)
    (he : e.val = t.val * 8000 + r.val) : iblk m c 2 t (ix2 r k) = V m c main_v25 (ix2 e k) := by
  show V m c main_v25 (((cfg0.win 2).blk t).view.emb (ix2 r k)) = V m c main_v25 (ix2 e k)
  obtain ⟨-, -, -, -, h0, h1, -⟩ := idx_facts t
  refine congrArg (V m c main_v25) (funext fun a => Fin.ext ?_)
  match a with
  | ⟨0, _⟩ => show win0_2.index t (0 : Fin 2) * 8000 + 1 * r.val = e.val; omega
  | ⟨1, _⟩ => show win0_2.index t (1 : Fin 2) * 3 + 1 * k.val = k.val; omega

theorem blk3 (c : Dev nD) (t : Fin cfg0.N) (r : Fin 8000) (k : Fin 3) (e : Fin 1600000)
    (he : e.val = t.val * 8000 + r.val) : iblk m c 3 t (ix2 r k) = V m c main_v32 (ix2 e k) := by
  show V m c main_v32 (((cfg0.win 3).blk t).view.emb (ix2 r k)) = V m c main_v32 (ix2 e k)
  obtain ⟨-, -, -, -, -, -, h0, h1, -⟩ := idx_facts t
  refine congrArg (V m c main_v32) (funext fun a => Fin.ext ?_)
  match a with
  | ⟨0, _⟩ => show win0_3.index t (0 : Fin 2) * 8000 + 1 * r.val = e.val; omega
  | ⟨1, _⟩ => show win0_3.index t (1 : Fin 2) * 3 + 1 * k.val = k.val; omega

theorem blk4 (c : Dev nD) (t : Fin cfg0.N) (a : Fin 133) (n : Fin 64) :
    iblk m c 4 t (ix2 a n) = V m c main_v33 (ix2 a n) := by
  show V m c main_v33 (((cfg0.win 4).blk t).view.emb (ix2 a n)) = V m c main_v33 (ix2 a n)
  obtain ⟨-, -, -, -, -, -, -, -, h0, h1, -⟩ := idx_facts t
  refine congrArg (V m c main_v33) (funext fun b => Fin.ext ?_)
  match b with
  | ⟨0, _⟩ => show win0_4.index t (0 : Fin 2) * 133 + 1 * a.val = a.val; omega
  | ⟨1, _⟩ => show win0_4.index t (1 : Fin 2) * 64 + 1 * n.val = n.val; omega

theorem blk5 (c : Dev nD) (t : Fin cfg0.N) (n : Fin 64) : iblk m c 5 t (ix1 n) = V m c main_arg5 (ix1 n) := by
  show V m c main_arg5 (((cfg0.win 5).blk t).view.emb (ix1 n)) = V m c main_arg5 (ix1 n)
  obtain ⟨-, -, -, -, -, -, -, -, -, -, h0, -⟩ := idx_facts t
  refine congrArg (V m c main_arg5) (funext fun b => Fin.ext ?_)
  match b with
  | ⟨0, _⟩ => show win0_5.index t (0 : Fin 1) * 64 + 1 * n.val = n.val; omega

theorem blk6 (c : Dev nD) (t : Fin cfg0.N) (n : Fin 64) (u : Fin 1) :
    iblk m c 6 t (ix2 n u) = V m c main_v34 (ix2 n u) := by
  show V m c main_v34 (((cfg0.win 6).blk t).view.emb (ix2 n u)) = V m c main_v34 (ix2 n u)
  obtain ⟨-, -, -, -, -, -, -, -, -, -, -, h0, h1, -⟩ := idx_facts t
  refine congrArg (V m c main_v34) (funext fun b => Fin.ext ?_)
  match b with
  | ⟨0, _⟩ => show win0_6.index t (0 : Fin 2) * 64 + 1 * n.val = n.val; omega
  | ⟨1, _⟩ => show win0_6.index t (1 : Fin 2) * 1 + 1 * u.val = u.val; omega

theorem blk7 (c : Dev nD) (t : Fin cfg0.N) (u : Fin 1) : iblk m c 7 t (ix1 u) = V m c main_arg7 (ix1 u) := by
  show V m c main_arg7 (((cfg0.win 7).blk t).view.emb (ix1 u)) = V m c main_arg7 (ix1 u)
  obtain ⟨-, -, -, -, -, -, -, -, -, -, -, -, -, h0, -⟩ := idx_facts t
  refine congrArg (V m c main_arg7) (funext fun b => Fin.ext ?_)
  match b with
  | ⟨0, _⟩ => show win0_7.index t (0 : Fin 1) * 1 + 1 * u.val = u.val; omega

/-! ## What a point writes back -/

/-- WHAT POINT t WRITES BACK is block t of `edges` of the arrays as the region finds them. -/
theorem flushed_eq (c : Dev nD) (t : Fin cfg0.N) :
    (dats m 0 c).flushed 8 t = ((cfg0.win 8).blk t).view.read (Elt Ideal)
      (edges (V m c main_v11) (V m c main_v18) (V m c main_v25) (V m c main_v32) (V m c main_v33) (V m c main_arg5)
        (V m c main_v34) (V m c main_arg7)) := by
  show (cfg0.win 8).cut (grid0.coords t) ((dats m 0 c).after 8 t) = _
  rw [after0_8]
  unfold out0_8
  rw [View.canon_unit_zero hz]
  simp only [View.ld_unit_zero (S := S8000x3) hz, View.ld_unit_zero (S := S8000x4) hz,
    View.ld_unit_zero (S := S133x64) hz, View.ld_unit_zero (S := S8000x128) hz, View.ld_unit_zero (S := S64) hz1,
    View.ld_unit_zero (S := S64x1) hz, View.ld_unit_zero (S := S1) hz1]
  funext y
  obtain ⟨r, j, rfl⟩ : ∃ (r : Fin 8000) (j : Fin 3), y = ix2 r j := ⟨y 0, y 1, eq_ix2 y⟩
  refine (Block.pay_apply (iblk m c 0 t) (iblk m c 1 t) (iblk m c 2 t) (iblk m c 3 t) (iblk m c 4 t) (iblk m c 5 t)
    (iblk m c 6 t) (iblk m c 7 t) r j).trans ?_
  obtain ⟨-, -, -, -, -, -, -, -, -, -, -, -, -, -, h80, h81⟩ := idx_facts t
  have ht : t.val < 200 := Nat.lt_of_lt_of_eq t.isLt (N_0 : cfg0.N = 200)
  let e : Fin 1600000 := ⟨t.val * 8000 + r.val, by omega⟩
  have hemb : ((cfg0.win 8).blk t).view.emb (ix2 r j) = ix2 e j := by
    funext a; apply Fin.ext
    match a with
    | ⟨0, _⟩ => show win0_8.index t (0 : Fin 2) * 8000 + 1 * r.val = t.val * 8000 + r.val; omega
    | ⟨1, _⟩ => show win0_8.index t (1 : Fin 2) * 3 + 1 * j.val = j.val; omega
  show _ = edges (V m c main_v11) (V m c main_v18) (V m c main_v25) (V m c main_v32) (V m c main_v33) (V m c main_arg5)
      (V m c main_v34) (V m c main_arg7) (((cfg0.win 8).blk t).view.emb (ix2 r j))
  rw [hemb]
  show _ = edgeRow (V m c main_v11) (V m c main_v18) (V m c main_v25) (V m c main_v32) (V m c main_v33) (V m c main_arg5)
      (V m c main_v34) (V m c main_arg7) e j
  unfold edgeRow
  simp only [blk0 m c t r _ e rfl, blk1 m c t r _ e rfl, blk2 m c t r _ e rfl, blk3 m c t r _ e rfl, blk4 m c t,
    blk5 m c t, blk6 m c t, blk7 m c t]

/-! ## The blocks cover the array -/

theorem mem_blk (t : Fin cfg0.N) (i : S1600000x3.Idx) :
    i ∈ ((cfg0.win 8).blk t).view.set ↔ ∀ a : Fin 2, win0_8.index t a * S8000x3.size a ≤ (i a).val
      ∧ (i a).val < win0_8.index t a * S8000x3.size a + S8000x3.size a := by
  show i ∈ ((View.whole main_v35).slice (win0_8.rect t)).set ↔ _
  rw [View.set_slice_whole, Rect.mem_set_unit]
  exact Iff.rfl

/-- Edge e's row is in the block of point e / 8000. -/
theorem cover (i : S1600000x3.Idx) :
    ∃ t : Fin cfg0.N, (cfg0.win 8).flush t = true ∧ i ∈ ((cfg0.win 8).blk t).view.set := by
  have hi0 : (i 0).val < 1600000 := (i 0).isLt
  have hi1 : (i 1).val < 3 := (i 1).isLt
  have hN : cfg0.N = 200 := N_0
  let t : Fin cfg0.N := ⟨(i 0).val / 8000, by rw [hN]; omega⟩
  obtain ⟨-, -, -, -, -, -, -, -, -, -, -, -, -, -, h80, h81⟩ := idx_facts t
  have htv : t.val = (i 0).val / 8000 := rfl
  refine ⟨t, flush0_8 t, ?_⟩
  rw [mem_blk]
  intro a
  match a with
  | ⟨0, _⟩ =>
    show win0_8.index t (0 : Fin 2) * 8000 ≤ (i 0).val ∧ (i 0).val < win0_8.index t (0 : Fin 2) * 8000 + 8000
    omega
  | ⟨1, _⟩ =>
    show win0_8.index t (1 : Fin 2) * 3 ≤ (i 1).val ∧ (i 1).val < win0_8.index t (1 : Fin 2) * 3 + 3
    omega

/-- THE RESULT ARRAY of the region after the run: every edge's contribution, from the arrays the region found. -/
theorem final (c : Dev nD) :
    (dats m 0 c).arrAt 8 cfg0.N
      = edges (V m c main_v11) (V m c main_v18) (V m c main_v25) (V m c main_v32) (V m c main_v33) (V m c main_arg5)
          (V m c main_v34) (V m c main_arg7) :=
  (dats m 0 c).arrAt_eq_of_cover 8 _ (fun t _ => flushed_eq m c t) cover

end Cert.KernelIdeal.Arr

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.KernelTail.lean ====
/-
  The host lines after the edge kernel, as one function.

  After the region @main adds every edge's contribution onto the edge's `row` node (a scatter-add from zero over the
  50000 × 3 result), takes each node's Euclidean length (the row sum of squares, its square root), clips it from below
  by ε, and divides each node's vector by its clipped length. `tail row contrib` is that composition of the two
  arrays the lines read: the row indices and the per-edge contributions. The reference ends with the same lines, so the
  composition is never opened: it is enough that the two arrays going in agree.
-/
import proofs.«102870_j79645873537099_1_alg».proof.Proof.Gen.KernelIdeal.Frame
import Idealize.ShloMosaic.Lib.StableHlo.Run
import Idealize.ShloMosaic.PureOps.Ideal
import proofs.«102870_j79645873537099_1_alg».proof.Proof.LibHostPieces

noncomputable section

namespace Cert.KernelIdeal.Tail

open Cert.KernelIdeal Cert.KernelIdeal.Gen Idealize.ShloMosaic Idealize.ShloMosaic.TcCoe Idealize.SL.Sem
  Idealize.ShloMosaic.StableHlo

/-- Every edge's contribution added onto the edge's `row` node, from zero. -/
def scat (row : IVec S1600000 32) (contrib : FVec Ideal S1600000x3 .f32) : FVec Ideal S50000x3 .f32 :=
  Host.scatterAdd (F := Ideal) scatter_S50000x3_S1600000x1_S1600000x3_1_0_0_1
    (broadcastInDim S50000x3 ![] bcast_S_S50000x3 (constant (F := Ideal) S_ .f32 0x00000000#32))
    (broadcastInDim S1600000x1 ![0] bcast_S1600000_S1600000x1_0 row) contrib

/-- Each node's vector over its length clipped from below by ε. -/
def normalize (d : FVec Ideal S50000x3 .f32) : FVec Ideal S50000x3 .f32 :=
  Host.divf (F := Ideal) d (broadcastInDim S50000x3 ![0, 1] bcast_S50000x1_S50000x3_0_1
    (maximumf (broadcastInDim S50000x1 ![] bcast_S_S50000x1 (id (constant (F := Ideal) S_ .f32 0x358637BD#32)))
      (Host.sqrt (F := Ideal) (broadcastInDim S50000x1 ![0] bcast_S50000_S50000x1_0
        (Host.reduceAdd (F := Ideal) (mulf d d) (constant (F := Ideal) S_ .f32 0x00000000#32)
          reducesTo_S50000x3_S50000_d1 h_S_)))))

/-- The lines after the region, of the row indices and the per-edge contributions. -/
def tail (row : IVec S1600000 32) (contrib : FVec Ideal S1600000x3 .f32) : FVec Ideal S50000x3 .f32 :=
  normalize (scat row contrib)

/-- From ANY buffer contents `W`, the lines after the region leave @main's result at `tail` of what `W` holds at the
    row indices and at the region's result array. -/
theorem after_tail (W : Valuation τ sig (Elt Ideal)) :
    StableHlo.after (List.flatten [hostOps1, hostOps1_1, hostOps1_2, hostOps1_3, hostOps1_4]) W (Proc.devRef .tc main_v42)
      = tail (W (Proc.devRef .tc main_v1)) (W (Proc.devRef .tc main_v35)) := by
  simp only [hostOps1, hostOps1_1, hostOps1_2, hostOps1_3, hostOps1_4, List.flatten_cons, List.flatten_nil,
    List.append_nil, List.cons_append, List.nil_append]
  after_results_simp
  -- the called functions' lines carry their operands to each buffer's own type and back: identities
  simp only [HostPieces.ofBuf_toBuf]
  have hto : ∀ v : (⟨S50000x1, .f32⟩ : BufTy).Contents (Elt Ideal),
      (TRef.of (T := ⟨S50000x1, .f32⟩) main_v40).toBuf v = v := fun _ => rfl
  rw [hto]
  rfl

end Cert.KernelIdeal.Tail

end
-- ==== Proof.KernelPrefix.lean ====
/-
  The host lines before the edge kernel: what the region finds in its windows' arrays.

  Before the region @main splits the edge list into its `row` and `col` halves, wraps negative indices by the node
  count, gathers the node features (after a change of float format), the curvatures and the first end point's position
  at `row` and the second end point's position at `col`, and changes the two weight matrices' float format. Each of
  the region's arrays is read off the fold of those lines as that composition of the launch memory's arguments.
-/
import proofs.«102870_j79645873537099_1_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem
  Idealize.ShloMosaic.StableHlo

/-- The first half of the edge list: each edge's `row` node. -/
def rowOf (x3 : IVec S2x1600000 32) : IVec S1600000 32 :=
  shapeCast _ (extractStridedSlice S1x1600000 ![0, 0] x3 slices_S2x1600000_S1x1600000_0_0) shapeCasts_S1x1600000_S1600000

/-- The second half of the edge list: each edge's `col` node. -/
def colOf (x3 : IVec S2x1600000 32) : IVec S1600000 32 :=
  shapeCast _ (extractStridedSlice S1x1600000 ![1, 0] x3 slices_S2x1600000_S1x1600000_1_0) shapeCasts_S1x1600000_S1600000

/-- Node indices as gather start indices: a negative index wrapped by the node count, one index per row. -/
def wrap (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 50000#32))) r)

variable (m : (ℓ : Loc nD τ sig) → Buf (Elt Ideal) ℓ)

theorem V_v1 (c : Dev nD) :
    (V m c main_v1 : IVec S1600000 32) = rowOf (m ((c : Thread nD τ).loc main_arg3)) := by
  dsimp only [Gen.V, Gen.V0]
  simp only [Gen.hostOps0, List.flatten_cons, List.flatten_nil, List.append_nil]
  after_results_simp
  rfl

theorem V_v11 (c : Dev nD) :
    V m c main_v11
      = (Host.gather gather_S50000x128_S1600000x1_S1600000x128_1_0_n_n_0_1_1128
          (truncf (F := Ideal) .bf16 (m ((c : Thread nD τ).loc main_arg0) : FVec Ideal S50000x128 .f32) bitsLt_bf16_f32)
          (wrap (rowOf (m ((c : Thread nD τ).loc main_arg3)))) : FVec Ideal S1600000x128 .bf16) := by
  dsimp only [Gen.V, Gen.V0]
  simp only [Gen.hostOps0, List.flatten_cons, List.flatten_nil, List.append_nil]
  after_results_simp
  rfl

theorem V_v18 (c : Dev nD) :
    (V m c main_v18 : FVec Ideal S1600000x4 .f32)
      = Host.gather gather_S50000x4_S1600000x1_S1600000x4_1_0_n_n_0_1_14 (m ((c : Thread nD τ).loc main_arg2))
          (wrap (rowOf (m ((c : Thread nD τ).loc main_arg3)))) := by
  dsimp only [Gen.V, Gen.V0]
  simp only [Gen.hostOps0, List.flatten_cons, List.flatten_nil, List.append_nil]
  after_results_simp
  rfl

theorem V_v25 (c : Dev nD) :
    (V m c main_v25 : FVec Ideal S1600000x3 .f32)
      = Host.gather gather_S50000x3_S1600000x1_S1600000x3_1_0_n_n_0_1_13 (m ((c : Thread nD τ).loc main_arg1))
          (wrap (rowOf (m ((c : Thread nD τ).loc main_arg3)))) := by
  dsimp only [Gen.V, Gen.V0]
  simp only [Gen.hostOps0, List.flatten_cons, List.flatten_nil, List.append_nil]
  after_results_simp
  rfl

theorem V_v32 (c : Dev nD) :
    (V m c main_v32 : FVec Ideal S1600000x3 .f32)
      = Host.gather gather_S50000x3_S1600000x1_S1600000x3_1_0_n_n_0_1_13 (m ((c : Thread nD τ).loc main_arg1))
          (wrap (colOf (m ((c : Thread nD τ).loc main_arg3)))) := by
  dsimp only [Gen.V, Gen.V0]
  simp only [Gen.hostOps0, List.flatten_cons, List.flatten_nil, List.append_nil]
  after_results_simp
  rfl

theorem V_v33 (c : Dev nD) :
    V m c main_v33
      = (truncf (F := Ideal) .bf16 (m ((c : Thread nD τ).loc main_arg4) : FVec Ideal S133x64 .f32) bitsLt_bf16_f32
          : FVec Ideal S133x64 .bf16) := by
  dsimp only [Gen.V, Gen.V0]
  simp only [Gen.hostOps0, List.flatten_cons, List.flatten_nil, List.append_nil]
  after_results_simp

theorem V_v34 (c : Dev nD) :
    V m c main_v34
      = (truncf (F := Ideal) .bf16 (m ((c : Thread nD τ).loc main_arg6) : FVec Ideal S64x1 .f32) bitsLt_bf16_f32
          : FVec Ideal S64x1 .bf16) := by
  dsimp only [Gen.V, Gen.V0]
  simp only [Gen.hostOps0, List.flatten_cons, List.flatten_nil, List.append_nil]
  after_results_simp

end Cert.KernelIdeal.Prefix

end
-- ==== Proof.KernelRun.lean ====
/-
  The kernel program's run, with its result named.

  Every weakly fair execution of the idealized kernel program terminates with @main's result at `result m c`: the
  closing lines (`Tail.tail`) of the edge list's `row` half and the per-edge array (`Arr.edges`) of the arrays the
  host lines before the region compute from the arguments (`Prefix`), and with the arguments unchanged. It is the
  generated frame run re-posted: the result buffer bypasses the region and is what the lines after it leave, from
  the region's exit contents — the region's result array at `Arr.final`, the row indices as the region found them.
-/
import proofs.«102870_j79645873537099_1_alg».proof.Proof.Gen.KernelIdeal.Frame
import proofs.«102870_j79645873537099_1_alg».proof.Proof.KernelArray
import proofs.«102870_j79645873537099_1_alg».proof.Proof.KernelTail
import proofs.«102870_j79645873537099_1_alg».proof.Proof.KernelPrefix

noncomputable section

namespace Cert.KernelIdeal.Run

open Cert.KernelIdeal Cert.KernelIdeal.Gen Idealize.ShloMosaic Idealize.ShloMosaic.TcCoe Idealize.SL.Sem
open Cert.KernelIdeal.Prefix Cert.KernelIdeal.Tail Cert.KernelIdeal.Arr

variable (m : (ℓ : Loc nD τ sig) → Buf (Elt Ideal) ℓ) (ρ : Dev nD → PrngReg)

/-- The kernel program's result on core `c`, as a function of the launch memory's arguments. -/
def result (c : Dev nD) : FVec Ideal S50000x3 .f32 :=
  tail (rowOf (m ((c : Thread nD τ).loc main_arg3)))
    (edges (Host.gather gather_S50000x128_S1600000x1_S1600000x128_1_0_n_n_0_1_1128
          (truncf (F := Ideal) .bf16 (m ((c : Thread nD τ).loc main_arg0) : FVec Ideal S50000x128 .f32) bitsLt_bf16_f32) (wrap (rowOf (m ((c : Thread nD τ).loc main_arg3)))))
        (Host.gather gather_S50000x4_S1600000x1_S1600000x4_1_0_n_n_0_1_14 (m ((c : Thread nD τ).loc main_arg2)) (wrap (rowOf (m ((c : Thread nD τ).loc main_arg3)))))
        (Host.gather gather_S50000x3_S1600000x1_S1600000x3_1_0_n_n_0_1_13 (m ((c : Thread nD τ).loc main_arg1)) (wrap (rowOf (m ((c : Thread nD τ).loc main_arg3)))))
        (Host.gather gather_S50000x3_S1600000x1_S1600000x3_1_0_n_n_0_1_13 (m ((c : Thread nD τ).loc main_arg1)) (wrap (colOf (m ((c : Thread nD τ).loc main_arg3)))))
        (truncf (F := Ideal) .bf16 (m ((c : Thread nD τ).loc main_arg4) : FVec Ideal S133x64 .f32) bitsLt_bf16_f32) (m ((c : Thread nD τ).loc main_arg5))
        (truncf (F := Ideal) .bf16 (m ((c : Thread nD τ).loc main_arg6) : FVec Ideal S64x1 .f32) bitsLt_bf16_f32) (m ((c : Thread nD τ).loc main_arg7)))

/-- What the lines after the region leave in @main's result buffer. -/
theorem tail_value (c : Dev nD) :
    Pipeline.afterTail₀ cfgs (dats m) 0 (V0 m) [hostOps1, hostOps1_1, hostOps1_2, hostOps1_3, hostOps1_4] c main_v42
      = result m c := by
  unfold Pipeline.afterTail₀
  refine (after_tail _).trans ?_
  have h35 : Pipeline.withArrays (cfgs 0).spec c (V0 m c) (fun w => (dats m 0 c).arrAt w (cfgs 0).N)
      (Proc.devRef .tc main_v35) = (dats m 0 c).arrAt 8 cfg0.N :=
    Pipeline.withArrays_arr spec0 launch0.win.arr_inj c _ _ 8
  have h1 : Pipeline.withArrays (cfgs 0).spec c (V0 m c) (fun w => (dats m 0 c).arrAt w (cfgs 0).N)
      (Proc.devRef .tc main_v1) = V m c main_v1 :=
    Pipeline.withArrays_of_ne _ c (V0 m c) _ main_v1 (by exact (by decide : ∀ w, Pipeline.arrRef spec0 w ≠ main_v1))
  rw [h35, h1, final, V_v1, V_v11, V_v18, V_v25, V_v32, V_v33, V_v34, V_main_arg5, V_main_arg7]
  rfl

/-- THE RUN: the result at `result m c`, the arguments unchanged. -/
theorem run : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v42 (Pipeline.mem_restRefs_of main_v42 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans ((((dats m) 0 c).arrAt_in 7 rfl _).trans ((A_eq m c 7).trans (V_main_arg7 m c)))⟩) (run_main m ρ)

end Cert.KernelIdeal.Run

end
-- ==== Proof.LibConcatCols3.lean ====
/-
  Three matrices with the same number of rows joined side by side, read at an entry.

  An `[n, a]`, an `[n, b]` and an `[n, c]` matrix joined along the columns into `[n, t]`: the entry at `(p, q)` is
  the first matrix at `(p, q)` for `q < a`, the second at `(p, q - a)` for `a ≤ q < a + b`, and the third at
  `(p, q - a - b)` from there on. The column is given with its position inside its piece (`q = k`, `q = a + k`,
  `q = a + b + k`), so no subtraction appears. Arbitrary extents and element type.
-/
import Idealize.ShloMosaic.Lib.Pipeline.Value
import Idealize.ShloMosaic.Lib.ValueIdx

noncomputable section

namespace Idealize.ShloMosaic.ConcatCols3

open Idealize.ShloMosaic Idealize.ShloMosaic.ValueIdx

variable {α : Type} {n a b c t : ℕ}

/-- A column among the first `a` reads the first matrix. -/
theorem concat3_left (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin a) (hq : q.val = k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₁ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 0
    (by show 0 < 3; omega) (⟨2, ![n, a]⟩ : Shape) x₁ rfl rfl 0 rfl (ix2 p k)
    (fun ax hax => by match ax with | ⟨0, _⟩ => rfl | ⟨1, _⟩ => exact absurd rfl hax)
    (by show 0 + k.val = q.val; omega)

/-- A column among the next `b` reads the second matrix. -/
theorem concat3_mid (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin b) (hq : q.val = a + k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₂ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 1
    (by show 1 < 3; omega) (⟨2, ![n, b]⟩ : Shape) x₂ rfl rfl a (Nat.add_zero a) (ix2 p k)
    (fun ax hax => by match ax with | ⟨0, _⟩ => rfl | ⟨1, _⟩ => exact absurd rfl hax)
    (by show a + k.val = q.val; omega)

/-- A column among the last `c` reads the third matrix. -/
theorem concat3_right (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin c) (hq : q.val = a + b + k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₃ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 2
    (by show 2 < 3; omega) (⟨2, ![n, c]⟩ : Shape) x₃ rfl rfl (a + b)
    (by show a + (b + 0) = a + b; rw [Nat.add_zero]) (ix2 p k)
    (fun ax hax => by match ax with | ⟨0, _⟩ => rfl | ⟨1, _⟩ => exact absurd rfl hax)
    (by show a + b + k.val = q.val; omega)

end Idealize.ShloMosaic.ConcatCols3

end
-- ==== Proof.RefEdge.lean ====
/-
  The reference's per-edge array, entry by entry.

  The reference computes, for every one of the 1,600,000 edges, the displacement between its end points, the clipped
  length, the unit vector, the 133 features joined side by side (the gathered node features, the gathered curvatures,
  the clipped length) times the first weight matrix plus its bias, the logistic activation spelt out as
  `x · (1 / (1 + exp (-x)))`, the second layer, and the product with the unit vector. Entry (e, j) of that array is the
  contribution `EdgeSpec.edgeOut` of row e of the gathered arrays: the one product over 133 joined features is
  regrouped into the features' three runs (`EdgeSpec.sum_split`), the spelt-out activation is the logistic function
  (`EdgeSpec.silu_eq`), and `max ε s = max s ε`.
-/
import proofs.«102870_j79645873537099_1_alg».proof.Proof.Gen.ReferenceIdeal.Read
import proofs.«102870_j79645873537099_1_alg».proof.Proof.EdgeSpec
import proofs.«102870_j79645873537099_1_alg».proof.Proof.LibConcatCols3
import Idealize.ShloMosaic.Lib.Pipeline.Value
import Idealize.ShloMosaic.Lib.ValueIdx
import Idealize.ShloMosaic.PureOps.Ideal.Laws

noncomputable section

open scoped BigOperators

namespace Cert.ReferenceIdeal.RefEdge

open Cert.ReferenceIdeal Cert.ReferenceIdeal.Gen Cert.ReferenceIdeal.Read Idealize.ShloMosaic
  Idealize.ShloMosaic.ValueIdx Cert.EdgeSpec

variable (x0 : (⟨S50000x128, .f32⟩ : BufTy).Contents (Elt Ideal)) (x1 : (⟨S50000x3, .f32⟩ : BufTy).Contents (Elt Ideal)) (x2 : (⟨S50000x4, .f32⟩ : BufTy).Contents (Elt Ideal))
  (x3 : (⟨S2x1600000, .i32⟩ : BufTy).Contents (Elt Ideal)) (x4 : (⟨S133x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))

/-- The clipped length of edge e's displacement. -/
theorem clipLen_apply (e : Fin 1600000) (u : Fin 1) :
    val_main_v20 (F := Ideal) x1 x3 (ix2 e u)
      = clipLen (Ideal.ofBits .f32 0x358637BD#32) (fun j => val_main_v17 (F := Ideal) x1 x3 (ix2 e j))
          (fun j => val_main_v10 (F := Ideal) x1 x3 (ix2 e j)) := by
  rw [val_main_v20_apply, val_main_call1_v1_apply, val_main_v19_apply, val_main_call0_v2_apply,
    val_main_call0_v1_apply]
  unfold clipLen
  show max (Ideal.ofBits .f32 0x358637BD#32) (Ideal.sqrt (Ideal.ofBits .f32 0x00000000#32
      + ∑ k : Fin 3, val_main_call0_v0 (F := Ideal) x1 x3 (idx_main_call0_v1 (idx_main_call0_v2 (ix2 e u)) k))) = _
  rw [Ideal.ofBits_zero_f32, zero_add, max_comm]
  refine congrArg (fun z => max (Ideal.sqrt z) (Ideal.ofBits .f32 0x358637BD#32)) (Finset.sum_congr rfl fun j _ => ?_)
  have hidx : idx_main_call0_v1 (idx_main_call0_v2 (ix2 e u)) j = ix2 e j :=
    funext fun a => Fin.ext (by match a with | ⟨0, _⟩ => rfl | ⟨1, _⟩ => rfl)
  rw [hidx]
  rfl

/-- The unit vector of edge e. -/
theorem unit_apply (e : Fin 1600000) (j : Fin 3) :
    val_main_v22 (F := Ideal) x1 x3 (ix2 e j)
      = Ideal.div (val_main_v10 (F := Ideal) x1 x3 (ix2 e j) - val_main_v17 (F := Ideal) x1 x3 (ix2 e j))
          (clipLen (Ideal.ofBits .f32 0x358637BD#32) (fun j => val_main_v17 (F := Ideal) x1 x3 (ix2 e j))
            (fun j => val_main_v10 (F := Ideal) x1 x3 (ix2 e j))) := by
  rw [val_main_v22_apply, val_main_v21_apply]
  have hidx : idx_main_v21 (ix2 e j) = ix2 e (0 : Fin 1) :=
    funext fun a => Fin.ext (by match a with | ⟨0, _⟩ => rfl | ⟨1, _⟩ => rfl)
  rw [hidx, clipLen_apply]
  rfl

/-- The hidden layer of edge e before its activation: the product over the 133 joined features, regrouped. -/
theorem pre_apply (e : Fin 1600000) (n : Fin 64) :
    val_main_v41 (F := Ideal) x0 x1 x2 x3 x4 x5 (ix2 e n)
      = pre (Ideal.ofBits .f32 0x358637BD#32) (fun k => val_main_v29 (F := Ideal) x0 x3 (ix2 e k))
          (fun k => val_main_v36 (F := Ideal) x2 x3 (ix2 e k)) (fun j => val_main_v17 (F := Ideal) x1 x3 (ix2 e j))
          (fun j => val_main_v10 (F := Ideal) x1 x3 (ix2 e j)) (fun a n => x4 (ix2 a n)) (fun n => x5 (ix1 n)) n := by
  rw [val_main_v41_apply, val_main_v38_apply, val_main_v40_apply, val_main_v39_apply]
  unfold pre
  show (∑ k : Fin 133, val_main_v37 (F := Ideal) x0 x1 x2 x3 (lidx_main_v38 (ix2 e n) k) * x4 (ridx_main_v38 (ix2 e n) k))
      + x5 (idx_main_v39 (idx_main_v40 (ix2 e n))) = _
  have hl : ∀ k : Fin 133, lidx_main_v38 (ix2 e n) k = ix2 e k := fun k =>
    funext fun a => Fin.ext (by match a with | ⟨0, _⟩ => rfl | ⟨1, _⟩ => rfl)
  have hr : ∀ k : Fin 133, ridx_main_v38 (ix2 e n) k = ix2 k n := fun k =>
    funext fun a => Fin.ext (by match a with | ⟨0, _⟩ => rfl | ⟨1, _⟩ => rfl)
  have hb : idx_main_v39 (idx_main_v40 (ix2 e n)) = ix1 n :=
    funext fun a => Fin.ext (by match a with | ⟨0, _⟩ => rfl)
  refine congrArg₂ (· + ·) ?_ (congrArg x5 hb)
  rw [sum_split]
  refine congrArg₂ (· + ·) (congrArg₂ (· + ·) ?_ ?_) ?_
  · refine Finset.sum_congr rfl fun k _ => ?_
    rw [hl, hr]
    refine congrArg (· * x4 (ix2 (⟨k.val, by omega⟩ : Fin 133) n)) ?_
    unfold val_main_v37
    exact ConcatCols3.concat3_left (n := 1600000) (a := 128) (b := 4) (c := 1) (t := 133) _ _ _
      concatenates_S1600000x128_S1600000x4_S1600000x1_S1600000x133_d1 e _ k rfl
  · refine Finset.sum_congr rfl fun k _ => ?_
    rw [hl, hr]
    refine congrArg (· * x4 (ix2 (⟨128 + k.val, by omega⟩ : Fin 133) n)) ?_
    unfold val_main_v37
    exact ConcatCols3.concat3_mid (n := 1600000) (a := 128) (b := 4) (c := 1) (t := 133) _ _ _
      concatenates_S1600000x128_S1600000x4_S1600000x1_S1600000x133_d1 e _ k rfl
  · refine Finset.sum_congr rfl fun k _ => ?_
    rw [hl, hr]
    refine congrArg (· * x4 (ix2 (⟨132 + k.val, by omega⟩ : Fin 133) n)) ?_
    unfold val_main_v37
    refine (ConcatCols3.concat3_right (n := 1600000) (a := 128) (b := 4) (c := 1) (t := 133) _ _ _
      concatenates_S1600000x128_S1600000x4_S1600000x1_S1600000x133_d1 e _ k rfl).trans ?_
    exact clipLen_apply x1 x3 e k

/-- The scalar weight of edge e. -/
theorem alpha_apply (e : Fin 1600000) :
    val_main_v46 (F := Ideal) x0 x1 x2 x3 x4 x5 x6 x7 (ix2 e (0 : Fin 1))
      = alpha (Ideal.ofBits .f32 0x358637BD#32) (fun k => val_main_v29 (F := Ideal) x0 x3 (ix2 e k))
          (fun k => val_main_v36 (F := Ideal) x2 x3 (ix2 e k)) (fun j => val_main_v17 (F := Ideal) x1 x3 (ix2 e j))
          (fun j => val_main_v10 (F := Ideal) x1 x3 (ix2 e j)) (fun a n => x4 (ix2 a n)) (fun n => x5 (ix1 n))
          (fun n => x6 (ix2 n (0 : Fin 1))) (x7 (ix1 (0 : Fin 1))) := by
  rw [val_main_v46_apply, val_main_v43_apply, val_main_v45_apply, val_main_v44_apply]
  unfold alpha
  show (∑ k : Fin 64, val_main_v42 (F := Ideal) x0 x1 x2 x3 x4 x5 (lidx_main_v43 (ix2 e (0 : Fin 1)) k)
        * x6 (ridx_main_v43 (ix2 e (0 : Fin 1)) k))
      + x7 (idx_main_v44 (idx_main_v45 (ix2 e (0 : Fin 1)))) = _
  have hl : ∀ k : Fin 64, lidx_main_v43 (ix2 e (0 : Fin 1)) k = ix2 e k := fun k =>
    funext fun a => Fin.ext (by match a with | ⟨0, _⟩ => rfl | ⟨1, _⟩ => rfl)
  have hr : ∀ k : Fin 64, ridx_main_v43 (ix2 e (0 : Fin 1)) k = ix2 k (0 : Fin 1) := fun k =>
    funext fun a => Fin.ext (by match a with | ⟨0, _⟩ => rfl | ⟨1, _⟩ => rfl)
  have hb : idx_main_v44 (idx_main_v45 (ix2 e (0 : Fin 1))) = ix1 (0 : Fin 1) :=
    funext fun a => Fin.ext (by match a with | ⟨0, _⟩ => rfl)
  refine congrArg₂ (· + ·) (Finset.sum_congr rfl fun n _ => ?_) (congrArg x7 hb)
  rw [hl, hr]
  refine congrArg (· * x6 (ix2 n (0 : Fin 1))) ?_
  show val_main_v41 (F := Ideal) x0 x1 x2 x3 x4 x5 (ix2 e n)
      * Ideal.div (Ideal.ofBits .f32 0x3F800000#32)
          (Ideal.ofBits .f32 0x3F800000#32 + Ideal.exp (-(val_main_v41 (F := Ideal) x0 x1 x2 x3 x4 x5 (ix2 e n)))) = _
  rw [silu_eq, pre_apply]

/-- THE PER-EDGE ARRAY, entry by entry: the contribution of edge e to coordinate j. -/
theorem contrib_apply (e : Fin 1600000) (j : Fin 3) :
    val_main_v48 (F := Ideal) x0 x1 x2 x3 x4 x5 x6 x7 (ix2 e j)
      = edgeOut (Ideal.ofBits .f32 0x358637BD#32) (fun k => val_main_v29 (F := Ideal) x0 x3 (ix2 e k))
          (fun k => val_main_v36 (F := Ideal) x2 x3 (ix2 e k)) (fun j => val_main_v17 (F := Ideal) x1 x3 (ix2 e j))
          (fun j => val_main_v10 (F := Ideal) x1 x3 (ix2 e j)) (fun a n => x4 (ix2 a n)) (fun n => x5 (ix1 n))
          (fun n => x6 (ix2 n (0 : Fin 1))) (x7 (ix1 (0 : Fin 1))) j := by
  rw [val_main_v48_apply, val_main_v47_apply]
  have hidx : idx_main_v47 (ix2 e j) = ix2 e (0 : Fin 1) :=
    funext fun a => Fin.ext (by match a with | ⟨0, _⟩ => rfl | ⟨1, _⟩ => rfl)
  rw [hidx, alpha_apply, unit_apply]
  rfl

end Cert.ReferenceIdeal.RefEdge

end
-- ==== Proof.Bridge.lean ====
/-
  The reference's result in the kernel's terms.

  The reference gathers with the same dimension numbers at the same wrapped indices as the kernel's host lines, and
  ends with the same scatter-add and normalisation; a change of float format is the identity on the extended reals.
  So each of its gathered arrays IS the corresponding array the kernel's region finds (the same composition of the
  same arguments), its row indices are the kernel's, and its closing lines are `Tail.tail`. With the per-edge arrays
  equal entry by entry (`RefEdge.contrib_apply` against `Arr.edges`), the reference's result is `Tail.tail` of the
  kernel's row indices and the kernel's per-edge array.
-/
import proofs.«102870_j79645873537099_1_alg».proof.Proof.RefEdge
import proofs.«102870_j79645873537099_1_alg».proof.Proof.KernelArray
import proofs.«102870_j79645873537099_1_alg».proof.Proof.KernelTail
import proofs.«102870_j79645873537099_1_alg».proof.Proof.KernelPrefix

noncomputable section

namespace Cert.Bridge

open Idealize.ShloMosaic Idealize.ShloMosaic.ValueIdx
open Cert.ReferenceIdeal.Read
open Cert.KernelIdeal.Prefix Cert.KernelIdeal.Tail Cert.KernelIdeal.Arr

variable (x0 : (⟨Cert.ReferenceIdeal.S50000x128, .f32⟩ : BufTy).Contents (Elt Ideal)) (x1 : (⟨Cert.ReferenceIdeal.S50000x3, .f32⟩ : BufTy).Contents (Elt Ideal)) (x2 : (⟨Cert.ReferenceIdeal.S50000x4, .f32⟩ : BufTy).Contents (Elt Ideal))
  (x3 : (⟨Cert.ReferenceIdeal.S2x1600000, .i32⟩ : BufTy).Contents (Elt Ideal)) (x4 : (⟨Cert.ReferenceIdeal.S133x64, .f32⟩ : BufTy).Contents (Elt Ideal)) (x5 : (⟨Cert.ReferenceIdeal.S64, .f32⟩ : BufTy).Contents (Elt Ideal))
  (x6 : (⟨Cert.ReferenceIdeal.S64x1, .f32⟩ : BufTy).Contents (Elt Ideal)) (x7 : (⟨Cert.ReferenceIdeal.S1, .f32⟩ : BufTy).Contents (Elt Ideal))

/-- The reference's row indices are the kernel's. -/
theorem row_eq : val_main_v1 (F := Ideal) x3 = rowOf x3 := rfl

/-- The reference's gathered node features are the kernel's (the format change is the identity). -/
theorem feat_eq : val_main_v29 (F := Ideal) x0 x3
    = Host.gather Cert.KernelIdeal.gather_S50000x128_S1600000x1_S1600000x128_1_0_n_n_0_1_1128
        (truncf (F := Ideal) .bf16 (x0 : FVec Ideal Cert.KernelIdeal.S50000x128 .f32) Cert.KernelIdeal.Gen.bitsLt_bf16_f32) (wrap (rowOf x3)) := rfl

/-- The reference's gathered curvatures are the kernel's. -/
theorem curv_eq : val_main_v36 (F := Ideal) x2 x3
    = Host.gather Cert.KernelIdeal.gather_S50000x4_S1600000x1_S1600000x4_1_0_n_n_0_1_14 x2 (wrap (rowOf x3)) := rfl

/-- The reference's first end points are the kernel's. -/
theorem xrow_eq : val_main_v17 (F := Ideal) x1 x3
    = Host.gather Cert.KernelIdeal.gather_S50000x3_S1600000x1_S1600000x3_1_0_n_n_0_1_13 x1 (wrap (rowOf x3)) := rfl

/-- The reference's second end points are the kernel's. -/
theorem xcol_eq : val_main_v10 (F := Ideal) x1 x3
    = Host.gather Cert.KernelIdeal.gather_S50000x3_S1600000x1_S1600000x3_1_0_n_n_0_1_13 x1 (wrap (colOf x3)) := rfl

/-- The reference's closing lines are the kernel's. -/
theorem tail_eq : val_main_v55 (F := Ideal) x0 x1 x2 x3 x4 x5 x6 x7
    = tail (val_main_v1 (F := Ideal) x3) (val_main_v48 (F := Ideal) x0 x1 x2 x3 x4 x5 x6 x7) := rfl

/-- The reference's per-edge array is the kernel's function of the same gathered arrays. -/
theorem contrib_eq : val_main_v48 (F := Ideal) x0 x1 x2 x3 x4 x5 x6 x7
    = edges (Host.gather Cert.KernelIdeal.gather_S50000x128_S1600000x1_S1600000x128_1_0_n_n_0_1_1128
          (truncf (F := Ideal) .bf16 (x0 : FVec Ideal Cert.KernelIdeal.S50000x128 .f32) Cert.KernelIdeal.Gen.bitsLt_bf16_f32) (wrap (rowOf x3)))
        (Host.gather Cert.KernelIdeal.gather_S50000x4_S1600000x1_S1600000x4_1_0_n_n_0_1_14 x2 (wrap (rowOf x3)))
        (Host.gather Cert.KernelIdeal.gather_S50000x3_S1600000x1_S1600000x3_1_0_n_n_0_1_13 x1 (wrap (rowOf x3)))
        (Host.gather Cert.KernelIdeal.gather_S50000x3_S1600000x1_S1600000x3_1_0_n_n_0_1_13 x1 (wrap (colOf x3)))
        (truncf (F := Ideal) .bf16 (x4 : FVec Ideal Cert.KernelIdeal.S133x64 .f32) Cert.KernelIdeal.Gen.bitsLt_bf16_f32) x5
        (truncf (F := Ideal) .bf16 (x6 : FVec Ideal Cert.KernelIdeal.S64x1 .f32) Cert.KernelIdeal.Gen.bitsLt_bf16_f32) x7 := by
  funext i
  obtain ⟨e, j, rfl⟩ : ∃ (e : Fin 1600000) (j : Fin 3), i = ix2 e j := ⟨i 0, i 1, eq_ix2 i⟩
  rw [Cert.ReferenceIdeal.RefEdge.contrib_apply, feat_eq, curv_eq, xrow_eq, xcol_eq]
  rfl

/-- THE REFERENCE'S RESULT: the kernel's closing lines of the kernel's row indices and per-edge array. -/
theorem ref_result : val_main_v55 (F := Ideal) x0 x1 x2 x3 x4 x5 x6 x7
    = tail (rowOf x3)
        (edges (Host.gather Cert.KernelIdeal.gather_S50000x128_S1600000x1_S1600000x128_1_0_n_n_0_1_1128
            (truncf (F := Ideal) .bf16 (x0 : FVec Ideal Cert.KernelIdeal.S50000x128 .f32) Cert.KernelIdeal.Gen.bitsLt_bf16_f32) (wrap (rowOf x3)))
          (Host.gather Cert.KernelIdeal.gather_S50000x4_S1600000x1_S1600000x4_1_0_n_n_0_1_14 x2 (wrap (rowOf x3)))
          (Host.gather Cert.KernelIdeal.gather_S50000x3_S1600000x1_S1600000x3_1_0_n_n_0_1_13 x1 (wrap (rowOf x3)))
          (Host.gather Cert.KernelIdeal.gather_S50000x3_S1600000x1_S1600000x3_1_0_n_n_0_1_13 x1 (wrap (colOf x3)))
          (truncf (F := Ideal) .bf16 (x4 : FVec Ideal Cert.KernelIdeal.S133x64 .f32) Cert.KernelIdeal.Gen.bitsLt_bf16_f32) x5
          (truncf (F := Ideal) .bf16 (x6 : FVec Ideal Cert.KernelIdeal.S64x1 .f32) Cert.KernelIdeal.Gen.bitsLt_bf16_f32) x7) := by
  rw [tail_eq, row_eq, contrib_eq]

end Cert.Bridge

end
-- ==== Proof.lean ====
/-
  A graph message-passing step: per-edge weights from a small perceptron, scattered back onto the nodes.

  For every edge (row, col) of a graph on 50000 nodes the program takes the displacement between the end points'
  positions, its length clipped from below by ε, the unit vector, and a scalar weight alpha from a two-layer perceptron
  on 133 features (the row node's 128 features, its 4 curvatures, the clipped length) with a logistic activation; it
  adds alpha times the unit vector onto the row node, and finally divides each node's accumulated vector by its own
  clipped length. The kernel computes the per-edge part on blocks of 8000 edges, with the 133-feature layer as three
  matrix products (128 + 4 + 1 features) into zero accumulators and the logistic function as one operation; the
  reference computes it on whole arrays, with one product over the 133 joined features and the logistic function spelt
  out. The gathers before and the scatter-add and normalisation after are the same host lines in both programs.

  On the extended reals the two are equal with no assumption on the inputs: a change of float format is the identity;
  a product into a zero accumulator is the plain sum; a sum over 133 terms regroups into its runs of 128, 4 and 1 by
  commutativity and associativity of addition alone; `1 / (1 + exp (-x))` is the logistic function at every extended
  real; and `max` is commutative. The kernel's blocks are restrictions of one function of the whole gathered arrays,
  entry (e, j) depending on row e only, and the 200 blocks tile the 1,600,000 edges.

  The three frames are the generated ones (the reference's is its generated run with the result dropped); the kernel
  is its own idealization (nothing was rewritten); the value claim joins the kernel's run (Proof/KernelRun.lean) and
  the reference's generated run, read in the kernel's terms (Proof/Bridge.lean).
-/
import proofs.«102870_j79645873537099_1_alg».proof.Defs
import proofs.«102870_j79645873537099_1_alg».proof.Proof.Gen.Kernel
import proofs.«102870_j79645873537099_1_alg».proof.Proof.Gen.Kernel.Skeleton
import proofs.«102870_j79645873537099_1_alg».proof.Proof.Gen.Kernel.Launch
import proofs.«102870_j79645873537099_1_alg».proof.Proof.Gen.Kernel.Points
import proofs.«102870_j79645873537099_1_alg».proof.Proof.Gen.Kernel.Frame
import proofs.«102870_j79645873537099_1_alg».proof.Proof.Gen.KernelIdeal
import proofs.«102870_j79645873537099_1_alg».proof.Proof.Gen.KernelIdeal.Skeleton
import proofs.«102870_j79645873537099_1_alg».proof.Proof.Gen.KernelIdeal.Launch
import proofs.«102870_j79645873537099_1_alg».proof.Proof.Gen.KernelIdeal.Points
import proofs.«102870_j79645873537099_1_alg».proof.Proof.Gen.KernelIdeal.Frame
import proofs.«102870_j79645873537099_1_alg».proof.Proof.Gen.ReferenceIdeal
import proofs.«102870_j79645873537099_1_alg».proof.Proof.Gen.ReferenceIdeal.Run
import proofs.«102870_j79645873537099_1_alg».proof.Proof.Gen.ReferenceIdeal.Read
import proofs.«102870_j79645873537099_1_alg».proof.Proof.Gen.Pre_finite_inputs
import proofs.«102870_j79645873537099_1_alg».proof.Proof.KernelRun
import proofs.«102870_j79645873537099_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the same result: the kernel's at
    `Run.result`, and the reference's generated run's term is that function of the same arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.Bridge.ref_result]
  obtain ⟨a0, a1, a2, a3, a4, a5, a6, a7⟩ := hagree c
  rw [a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
